-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x1024x1024 : Shape := ⟨4, ![16, 4, 1024, 1024]⟩
abbrev S_ : Shape := ⟨0, ![]⟩

class Facts : Prop where
  bcast_S_S16x4x1024x1024 : S_.BroadcastsInDim S16x4x1024x1024 (![] : Fin 0 → Fin S16x4x1024x1024.rank)
  reducesTo_S16x4x1024x1024_S_d0_1_2_3 : S16x4x1024x1024.ReducesTo [0, 1, 2, 3] S_
  h_S_ : 0 < S_.numel

variable [Facts]

def fn {F : FTy → Type} [FloatOps F] (main_arg0 : FVec F S16x4x1024x1024 .f32) : IVec S_ 1 :=
  let main_v0 : FVec F S16x4x1024x1024 .f32 := Host.absf main_arg0
  let main_cst : FVec F S_ .f32 := constant S_ .f32 0x7F800000#32
  let main_v1 : FVec F S16x4x1024x1024 .f32 := broadcastInDim S16x4x1024x1024 ![] bcast_S_S16x4x1024x1024 main_cst
  let main_v2 : IVec S16x4x1024x1024 1 := cmpf .olt main_v0 main_v1
  let main_c : IVec S_ 1 := constantI S_ 1 1#1
  let main_v3 : IVec S_ 1 := (fun x v => Host.reduce IntOp.andi x v reducesTo_S16x4x1024x1024_S_d0_1_2_3 h_S_) main_v2 main_c
  main_v3
-- ==== Kernel.lean ====
abbrev S16x4x1024x1024 : Shape := ⟨4, ![16, 4, 1024, 1024]⟩
abbrev S16x4096x1024 : Shape := ⟨3, ![16, 4096, 1024]⟩
abbrev S1x4096x1024 : Shape := ⟨3, ![1, 4096, 1024]⟩
abbrev S1x1 : Shape := ⟨2, ![1, 1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 4
  | .vmem => 2
  | .smem => 0
  | _ => 0

abbrev bufTy : (tb : Table) → Fin (tcTables nBuf tb) → BufTy
  | .hbm, ⟨0, _⟩ => ⟨S16x4x1024x1024, .f32⟩
  | .hbm, ⟨1, _⟩ => ⟨S16x4096x1024, .f32⟩
  | .hbm, ⟨2, _⟩ => ⟨S16x4096x1024, .f32⟩
  | .hbm, ⟨3, _⟩ => ⟨S16x4x1024x1024, .f32⟩
  | .local _ .vmem, ⟨0, _⟩ => ⟨S1x4096x1024, .f32⟩
  | .local _ .vmem, ⟨1, _⟩ => ⟨S1x4096x1024, .f32⟩
  | _, _ => ⟨S16x4x1024x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c256_i32 : BitVec 32 := 256#32
  let v16 : BitVec 32 := Scalar.muli arg3 c256_i32
  v16
def k0_off1 (k0_t1 : Fin k0_t1_loop.trips) : Fin 3 → Nat :=
  let c0 : Index := 0#32
  let c0_i32 : BitVec 32 := 0#32
  let c1_i32 : BitVec 32 := 1#32
  let arg3 : BitVec 32 := Scf.iv c0_i32 c1_i32 k0_t1
  let c256_i32 : BitVec 32 := 256#32
  let v16 : BitVec 32 := Scalar.muli arg3 c256_i32
  let v17 : BitVec 32 := v16
  let v18 : Index := Scalar.indexCast v17
  let c0_8 : Index := 0#32
  ![0, v18.toNat, 0]
@[reducible] def k0_t2_loop : Scf.Loop 32 :=
  let c0_i32_4 : BitVec 32 := 0#32
  let c16_i32_5 : BitVec 32 := 16#32
  let v15 : BitVec 32 := Scalar.addi c0_i32_4 c16_i32_5
  let c1_i32_6 : BitVec 32 := 1#32
  ⟨c0_i32_4, v15, c1_i32_6⟩
def k0_mult2 (k0_t2 : Fin k0_t2_loop.trips) : BitVec 32 :=
  let c0_i32_4 : BitVec 32 := 0#32
  let c1_i32_6 : BitVec 32 := 1#32
  let arg3 : BitVec 32 := Scf.iv c0_i32_4 c1_i32_6 k0_t2
  let c256_i32 : BitVec 32 := 256#32
  let v16 : BitVec 32 := Scalar.muli arg3 c256_i32
  v16
def k0_off2 (k0_t2 : Fin k0_t2_loop.trips) : Fin 3 → Nat :=
  let c0 : Index := 0#32
  let c0_i32_4 : BitVec 32 := 0#32
  let c1_i32_6 : BitVec 32 := 1#32
  let arg3 : BitVec 32 := Scf.iv c0_i32_4 c1_i32_6 k0_t2
  let c256_i32 : BitVec 32 := 256#32
  let v16 : BitVec 32 := Scalar.muli arg3 c256_i32
  let v17 : BitVec 32 := v16
  let v18 : Index := Scalar.indexCast v17
  let c0_8 : Index := 0#32
  ![0, v18.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

class Facts₀ : Prop where
  shapeCasts_S16x4x1024x1024_S16x4096x1024 : S16x4x1024x1024.ShapeCasts S16x4096x1024
  h_S1x256x1024 : 0 < S1x256x1024.numel
  shapeCasts_S1x256x1024_S256x1024 : S1x256x1024.ShapeCasts S256x1024
  natLt_1_32 : 1 < 32
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  broadcasts_S1x1_S256x1024 : S1x1.Broadcasts S256x1024
  shapeCasts_S256x1024_S1x256x1024 : S256x1024.ShapeCasts S1x256x1024
  shapeCasts_S16x4096x1024_S16x4x1024x1024 : S16x4096x1024.ShapeCasts S16x4x1024x1024
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x1024.size a ≤ S1x4096x1024.size a
  k0_t2_ok : k0_t2_loop.OK
  k0_mult2_dvd : ∀ k0_t2 : Fin k0_t2_loop.trips, 256 ∣ (k0_mult2 k0_t2).toNat
  k0_off2_inb : ∀ k0_t2 : Fin k0_t2_loop.trips, ∀ a, (k0_off2 k0_t2) a + S1x256x1024.size a ≤ S1x4096x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096x1024.size a ≤ S16x4096x1024.size a
  hwx0_0 : ∀ i : grid0.Coords, EltTy.bits .f32 = 32 ∨ (Rect.block (s := S16x4096x1024) S1x4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S16x4096x1024.size a
  hwx0_1 : ∀ i : grid0.Coords, EltTy.bits .f32 = 32 ∨ (Rect.block (s := S16x4096x1024) S1x4096x1024.size (cc0_transform_1 i) (hinb0_1 i)).WholeWords (EltTy.packing .f32)

variable [Facts₀]

abbrev win0_0 : Pipeline.Window sig grid0 :=
  Pipeline.Window.ofSpec (Memref.whole main_v0) S1x4096x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4x1024x1024 : Shape := ⟨4, ![16, 4, 1024, 1024]⟩
abbrev S_ : Shape := ⟨0, ![]⟩
abbrev S16 : Shape := ⟨1, ![16]⟩
abbrev S16x1x1x1 : Shape := ⟨4, ![16, 1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S16x4x1024x1024, .f32⟩
  | .hbm, ⟨1, _⟩ => ⟨S_, .f32⟩
  | .hbm, ⟨2, _⟩ => ⟨S16x4x1024x1024, .f32⟩
  | .hbm, ⟨3, _⟩ => ⟨S16x4x1024x1024, .i1⟩
  | .hbm, ⟨4, _⟩ => ⟨S16x4x1024x1024, .f32⟩
  | .hbm, ⟨5, _⟩ => ⟨S_, .f32⟩
  | .hbm, ⟨6, _⟩ => ⟨S16, .f32⟩
  | .hbm, ⟨7, _⟩ => ⟨S16x1x1x1, .f32⟩
  | .hbm, ⟨8, _⟩ => ⟨S16x4x1024x1024, .f32⟩
  | .hbm, ⟨9, _⟩ => ⟨S_, .f32⟩
  | .hbm, ⟨10, _⟩ => ⟨S16, .f32⟩
  | .hbm, ⟨11, _⟩ => ⟨S16x1x1x1, .f32⟩
  | .hbm, ⟨12, _⟩ => ⟨S16x1x1x1, .f32⟩
  | .hbm, ⟨13, _⟩ => ⟨S16x4x1024x1024, .f32⟩
  | .hbm, ⟨14, _⟩ => ⟨S16x4x1024x1024, .f32⟩
  | .hbm, ⟨15, _⟩ => ⟨S16x4x1024x1024, .f32⟩
  | .hbm, ⟨16, _⟩ => ⟨S16x4x1024x1024, .f32⟩
  | .hbm, ⟨17, _⟩ => ⟨S_, .f32⟩
  | .hbm, ⟨18, _⟩ => ⟨S16, .f32⟩
  | .hbm, ⟨19, _⟩ => ⟨S16x1x1x1, .f32⟩
  | .hbm, ⟨20, _⟩ => ⟨S16x1x1x1, .f32⟩
  | .hbm, ⟨21, _⟩ => ⟨S16x4x1024x1024, .f32⟩
  | .hbm, ⟨22, _⟩ => ⟨S16x4x1024x1024, .f32⟩
  | .hbm, ⟨23, _⟩ => ⟨S16x4x1024x1024, .f32⟩
  | .hbm, ⟨24, _⟩ => ⟨S16x4x1024x1024, .f32⟩
  | .hbm, ⟨25, _⟩ => ⟨S_, .f32⟩
  | .hbm, ⟨26, _⟩ => ⟨S16, .f32⟩
  | .hbm, ⟨27, _⟩ => ⟨S16x1x1x1, .f32⟩
  | .hbm, ⟨28, _⟩ => ⟨S_, .f32⟩
  | .hbm, ⟨29, _⟩ => ⟨S16x1x1x1, .f32⟩
  | .hbm, ⟨30, _⟩ => ⟨S16x1x1x1, .f32⟩
  | .hbm, ⟨31, _⟩ => ⟨S16x1x1x1, .f32⟩
  | .hbm, ⟨32, _⟩ => ⟨S16x1x1x1, .f32⟩
  | .hbm, ⟨33, _⟩ => ⟨S_, .f32⟩
  | .hbm, ⟨34, _⟩ => ⟨S16x1x1x1, .f32⟩
  | .hbm, ⟨35, _⟩ => ⟨S16x1x1x1, .f32⟩
  | .hbm, ⟨36, _⟩ => ⟨S16x4x1024x1024, .f32⟩
  | .hbm, ⟨37, _⟩ => ⟨S16x4x1024x1024, .f32⟩
  | .hbm, ⟨38, _⟩ => ⟨S16x4x1024x1024, .f32⟩
  | _, _ => ⟨S16x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  bcast_S_S16x4x1024x1024 : S_.BroadcastsInDim S16x4x1024x1024 (![] : Fin 0 → Fin S16x4x1024x1024.rank)
  reducesTo_S16x4x1024x1024_S16_d1_2_3 : S16x4x1024x1024.ReducesTo [1, 2, 3] S16
  h_S_ : 0 < S_.numel
  bcast_S16_S16x1x1x1_0 : S16.BroadcastsInDim S16x1x1x1 (![0] : Fin 1 → Fin S16x1x1x1.rank)
  bcast_S16x1x1x1_S16x4x1024x1024_0_1_2_3 : S16x1x1x1.BroadcastsInDim S16x4x1024x1024 (![0, 1, 2, 3] : Fin 4 → Fin S16x4x1024x1024.rank)
  bcast_S_S16x1x1x1 : S_.BroadcastsInDim S16x1x1x1 (![] : Fin 0 → Fin S16x1x1x1.rank)

variable [Facts₀]

class Facts : Prop extends Facts₀ where

variable [Facts]
-- ==== Proof.LibMaskedStats.lean ====
/-
  Masked per-sample normalisation on the extended reals: the two ways of writing it are one function.

  For a finite family `x` of real numbers, let `v i` be 1 where `x i ≠ 0` and 0 elsewhere (the mask), `n = ∑ v`,
  `sx = ∑ x·v`, `sx2 = ∑ x·(x·v)` and `μ = sx / n`.

  * The one-pass form takes the variance as `(sx2 − μ·μ·n) / (n − 1)` and scales a masked-in entry to
    `(x − μ) · (1 / (√var + ε))`.
  * The two-pass form re-centres: `c i = x i − μ` where `x i ≠ 0` and `x i` elsewhere, `m₂ = (∑ c·v) / n`, the variance
    `(∑ v·(c − m₂)²) / (n − 1)`, and a masked-in entry becomes `c / (√var + ε)`.

  A masked-out entry (`x = 0`) is returned unchanged by both. Where some entry is masked in, `n ≥ 1` is a nonzero real,
  `μ` is real, `∑ c·v = sx − μ·n = 0` so `m₂ = 0`, and `∑ v·(x − μ)² = sx2 − 2μ·sx + μ²·n = sx2 − μ²·n`: the two
  variances are the quotient of the same real by the same real (whatever that quotient is when `n = 1`), and since
  `√var + ε` is either `⊥` or at least `ε > 0`, it is not zero, where `a · (1 / b) = a / b`.
-/
import Mathlib.Data.EReal.Inv
import Idealize.ShloMosaic.PureOps.Ideal
import Idealize.ShloMosaic.PureOps.Ideal.Laws

noncomputable section

open scoped BigOperators

namespace Cert.MaskedNorm

open Idealize.ShloMosaic

/-- The mask of an entry: 1 where it is not zero, 0 where it is. -/
def ind (x : EReal) : EReal := if x ≠ 0 then 1 else 0

/-- The stabiliser both programs add to the standard deviation: the single-precision number nearest 1e-5. -/
def epsW : EReal := Ideal.ofBits .f32 0x3727C5AC#32

/-- The single-precision pattern of 1.0 denotes 1. -/
theorem ofBits_one : Ideal.ofBits .f32 0x3F800000#32 = 1 := by
  simp [Ideal.ofBits, Ideal.ieee]
  norm_cast
  norm_num

/-- The stabiliser is a positive real. -/
theorem epsW_pos : ∃ e : ℝ, 0 < e ∧ epsW = (e : EReal) := by
  refine ⟨(10995116 : ℝ) * (2 : ℝ) ^ (-40 : ℤ), by positivity, ?_⟩
  unfold epsW
  simp [Ideal.ofBits, Ideal.ieee]

/-! ### Auxiliary facts -/

/-- The coercion of a finite sum of reals is the sum of the coercions. -/
theorem coe_sum {α : Type} (s : Finset α) (f : α → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The mask of a real is the coercion of the real mask. -/
theorem ind_coe (r : ℝ) : ind (r : EReal) = ((if r ≠ 0 then (1 : ℝ) else 0 : ℝ) : EReal) := by
  unfold ind
  by_cases h : r = 0
  · have h' : ((r : ℝ) : EReal) = 0 := by rw [h]; rfl
    rw [if_neg (not_not.mpr h'), if_neg (not_not.mpr h)]; rfl
  · have h' : ((r : ℝ) : EReal) ≠ 0 := by exact_mod_cast h
    rw [if_pos h', if_pos h]; rfl

/-- Off zero, the division is the product with the inverse. -/
theorem div_of_ne_zero (c b : EReal) (hb : b ≠ 0) : Ideal.div c b = c * b⁻¹ := by
  unfold Ideal.div
  rw [if_neg hb]

/-- A square root plus a positive real is never zero: it is `⊥`, `⊤`, or a positive real. -/
theorem sqrt_add_pos_ne_zero (v : EReal) {e : ℝ} (he : 0 < e) : Ideal.sqrt v + (e : EReal) ≠ 0 := by
  induction v using EReal.rec with
  | bot => rw [Ideal.sqrt_bot, EReal.bot_add]; exact EReal.bot_ne_zero
  | top => rw [Ideal.sqrt_top, EReal.top_add_coe]; exact EReal.top_ne_zero
  | coe r =>
    rw [Ideal.sqrt_coe]
    split_ifs with h
    · rw [EReal.bot_add]; exact EReal.bot_ne_zero
    · rw [← EReal.coe_add]
      have hpos : 0 < Real.sqrt r + e := by positivity
      exact_mod_cast hpos.ne'

/-! ### The one-pass form -/

/-- The one-pass variance from the three sums. -/
def onePassVar (n sx sx2 : EReal) : EReal :=
  Ideal.div (sx2 - Ideal.div sx n * Ideal.div sx n * n) (n - 1)

/-- One entry of the one-pass form, from the three sums and the entry. -/
def onePass (n sx sx2 x : EReal) : EReal :=
  if x ≠ 0 then (x - Ideal.div sx n) * Ideal.div 1 (Ideal.sqrt (onePassVar n sx sx2) + epsW) else x

/-! ### The two-pass form, over a finite family -/

section TwoPass

variable {ι : Type} [Fintype ι] (x : ι → EReal)

/-- The masked mean. -/
def mean : EReal := Ideal.div (∑ i, x i * ind (x i)) (∑ i, ind (x i))

/-- An entry re-centred where it is masked in. -/
def cen (i : ι) : EReal := if x i ≠ 0 then x i - mean x else x i

/-- The masked mean of the re-centred entries. -/
def mean2 : EReal := Ideal.div (∑ i, cen x i * ind (x i)) (∑ i, ind (x i))

/-- The two-pass variance. -/
def twoPassVar : EReal :=
  Ideal.div (∑ i, ind (x i) * ((cen x i - mean2 x) * (cen x i - mean2 x))) (∑ i, ind (x i) - 1)

/-- One entry of the two-pass form. -/
def twoPass (j : ι) : EReal :=
  if x j ≠ 0 then Ideal.div (cen x j) (Ideal.sqrt (twoPassVar x) + epsW) else x j

/-- The two forms agree at every entry of a family of reals. -/
theorem onePass_eq_twoPass (hx : ∀ i, ∃ r : ℝ, x i = (r : EReal)) (j : ι) :
    onePass (∑ i, ind (x i)) (∑ i, x i * ind (x i)) (∑ i, x i * (x i * ind (x i))) (x j) = twoPass x j := by
  by_cases hj : x j = 0
  · unfold onePass twoPass
    rw [if_neg (not_not.mpr hj), if_neg (not_not.mpr hj)]
  · choose r hr using hx
    obtain ⟨e, he, hE⟩ := epsW_pos
    have hrj : r j ≠ 0 := by
      intro h; apply hj; rw [hr j, h]; rfl
    -- the real mask and the three real sums
    obtain ⟨vR, hvR⟩ : ∃ vR : ι → ℝ, ∀ i, vR i = if r i ≠ 0 then (1 : ℝ) else 0 :=
      ⟨fun i => if r i ≠ 0 then 1 else 0, fun _ => rfl⟩
    obtain ⟨N, hNdef⟩ : ∃ N : ℝ, N = ∑ i, vR i := ⟨_, rfl⟩
    obtain ⟨SX, hSXdef⟩ : ∃ SX : ℝ, SX = ∑ i, r i * vR i := ⟨_, rfl⟩
    obtain ⟨SX2, hSX2def⟩ : ∃ SX2 : ℝ, SX2 = ∑ i, r i * (r i * vR i) := ⟨_, rfl⟩
    have hind : ∀ i, ind (x i) = (vR i : EReal) := fun i => by rw [hr i, ind_coe, hvR i]
    have hN : ∑ i, ind (x i) = (N : EReal) := by
      rw [hNdef, coe_sum]; exact Finset.sum_congr rfl (fun i _ => hind i)
    have hSX : ∑ i, x i * ind (x i) = (SX : EReal) := by
      rw [hSXdef, coe_sum]; refine Finset.sum_congr rfl (fun i _ => ?_)
      rw [hind i, hr i, EReal.coe_mul]
    have hSX2 : ∑ i, x i * (x i * ind (x i)) = (SX2 : EReal) := by
      rw [hSX2def, coe_sum]; refine Finset.sum_congr rfl (fun i _ => ?_)
      rw [hind i, hr i, EReal.coe_mul, EReal.coe_mul]
    -- the count is at least one, since entry j is masked in
    have hvnn : ∀ i, 0 ≤ vR i := fun i => by rw [hvR i]; split_ifs <;> norm_num
    have hN1 : 1 ≤ N := by
      have h1 : vR j ≤ ∑ i, vR i := Finset.single_le_sum (fun i _ => hvnn i) (Finset.mem_univ j)
      have hvj : vR j = 1 := by rw [hvR j, if_pos hrj]
      rw [hNdef]; linarith
    have hN0 : N ≠ 0 := by intro h; rw [h] at hN1; norm_num at hN1
    -- the mean is a real
    obtain ⟨μ, hμ⟩ : ∃ μ : ℝ, μ = SX * (1 / N) := ⟨_, rfl⟩
    have hμN : μ * N = SX := by rw [hμ]; field_simp
    have hmeanR : Ideal.div (SX : EReal) (N : EReal) = (μ : EReal) := by
      rw [Ideal.div_coe hN0, ← EReal.coe_mul, hμ]
    have hmean : mean x = (μ : EReal) := by
      unfold mean; rw [hSX, hN, hmeanR]
    -- the re-centred entries are reals
    obtain ⟨cenR, hcenR⟩ : ∃ cenR : ι → ℝ, ∀ i, cenR i = if r i ≠ 0 then r i - μ else r i :=
      ⟨fun i => if r i ≠ 0 then r i - μ else r i, fun _ => rfl⟩
    have hcen : ∀ i, cen x i = (cenR i : EReal) := by
      intro i
      unfold cen
      rw [hmean, hr i, hcenR i]
      by_cases h : r i = 0
      · have h' : ((r i : ℝ) : EReal) = 0 := by rw [h]; rfl
        rw [if_neg (not_not.mpr h'), if_neg (not_not.mpr h)]
      · have h' : ((r i : ℝ) : EReal) ≠ 0 := by exact_mod_cast h
        rw [if_pos h', if_pos h, ← EReal.coe_sub]
    -- the masked sum of the re-centred entries vanishes
    have hsum1 : ∑ i, cenR i * vR i = 0 := by
      have hpt : ∀ i, cenR i * vR i = r i * vR i - μ * vR i := by
        intro i; rw [hcenR i, hvR i]; split_ifs <;> ring
      rw [Finset.sum_congr rfl (fun i _ => hpt i), Finset.sum_sub_distrib, ← Finset.mul_sum,
        ← hSXdef, ← hNdef]
      linarith
    have hmean2 : mean2 x = 0 := by
      unfold mean2
      have h0 : ∑ i, cen x i * ind (x i) = ((0 : ℝ) : EReal) := by
        rw [← hsum1, coe_sum]; refine Finset.sum_congr rfl (fun i _ => ?_)
        rw [hcen i, hind i, EReal.coe_mul]
      rw [h0, hN, Ideal.div_coe hN0, ← EReal.coe_mul, zero_mul]; rfl
    -- the masked sum of squared deviations is the one-pass numerator
    have hsum2 : ∑ i, vR i * ((cenR i - 0) * (cenR i - 0)) = SX2 - μ * μ * N := by
      have hpt : ∀ i, vR i * ((cenR i - 0) * (cenR i - 0))
          = r i * (r i * vR i) - 2 * μ * (r i * vR i) + μ * μ * vR i := by
        intro i; rw [hcenR i, hvR i]; split_ifs <;> ring
      rw [Finset.sum_congr rfl (fun i _ => hpt i), Finset.sum_add_distrib, Finset.sum_sub_distrib,
        ← Finset.mul_sum, ← Finset.mul_sum, ← hSX2def, ← hSXdef, ← hNdef]
      linear_combination (2 * μ) * hμN
    -- the two variances are the same quotient
    have hvar : twoPassVar x
        = onePassVar (∑ i, ind (x i)) (∑ i, x i * ind (x i)) (∑ i, x i * (x i * ind (x i))) := by
      unfold twoPassVar onePassVar
      rw [hSX2, hSX, hN, hmeanR, hmean2]
      congr 1
      rw [← EReal.coe_mul, ← EReal.coe_mul, ← EReal.coe_sub, ← hsum2, coe_sum]
      refine Finset.sum_congr rfl (fun i _ => ?_)
      rw [hind i, hcen i]
      have hz : (0 : EReal) = ((0 : ℝ) : EReal) := rfl
      rw [hz, ← EReal.coe_sub, ← EReal.coe_mul, ← EReal.coe_mul]
    -- the scaled entry
    have hb : Ideal.sqrt (twoPassVar x) + epsW ≠ 0 := by
      rw [hE]; exact sqrt_add_pos_ne_zero _ he
    have hcj : cen x j = x j - mean x := by unfold cen; rw [if_pos hj]
    unfold onePass twoPass
    rw [if_pos hj, if_pos hj, ← hvar, hcj, div_of_ne_zero _ _ hb, div_of_ne_zero _ _ hb, one_mul]
    rfl

end TwoPass

end Cert.MaskedNorm

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.LibScalarBroadcast.lean ====
/-
  A 1×1 array stretched over a matrix, read at an entry. Independent of any program.

  `broadcast_11_apply` — a `[1, 1]` array broadcast to `[a, b]` holds, at every `(p, q)`, its one entry `(0, 0)`:
  a scalar a kernel receives as a 1×1 block and multiplies a whole tile by.
-/
import Idealize.ShloMosaic.Lib.ValueIdx
import Idealize.ShloMosaic.Lib.Pipeline.Value

namespace Cert.ScalarBroadcast

open Idealize.ShloMosaic Idealize.ShloMosaic.ValueIdx

variable {α : Type}

/-- A `[1, 1]` array broadcast to `[a, b]` reads, at `(p, q)`, the operand's entry `(0, 0)`. -/
theorem broadcast_11_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) :=
  broadcastTo_apply v h _ _ (fun ax => by
    match ax with
    | ⟨0, _⟩ => show (0 : ℕ) = if (1 : ℕ) = 1 then 0 else _; rw [if_pos rfl]
    | ⟨1, _⟩ => show (0 : ℕ) = if (1 : ℕ) = 1 then 0 else _; rw [if_pos rfl])

end Cert.ScalarBroadcast
-- ==== Proof.KernelEntries.lean ====
/-
  The kernel body's values read one entry at a time, on the extended reals.

  A slab is a `[1, 256, 1024]` piece of one sample. From it the body forms the mask (1 where the entry is not zero),
  the three slab totals it adds to its running sums — each a sum over the lanes of every row followed by a sum over the
  rows, kept as a `[1, 1]` array — and, once the totals of the whole sample are known, the normalised slab it stores.
  Read at an entry: the mask is `ind` of the entry; a slab total is the double sum over rows and lanes; the stored
  value is `onePass` of the three totals and the entry.
-/
import proofs.«174254_j31172872634755_2_alg».proof.Proof.Gen.KernelIdeal.Skeleton
import proofs.«174254_j31172872634755_2_alg».proof.Proof.LibMaskedStats
import proofs.«174254_j31172872634755_2_alg».proof.Proof.LibKeepdims
import proofs.«174254_j31172872634755_2_alg».proof.Proof.LibColumnReads
import proofs.«174254_j31172872634755_2_alg».proof.Proof.LibScalarBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Entries

open Idealize.ShloMosaic Idealize.ShloMosaic.ValueIdx Cert.KernelIdeal Cert.KernelIdeal.Gen Cert.MaskedNorm

/-! ### Scalars -/

/-- The comparison "not equal to zero" widened to 32 bits and read as a signed integer is the mask. -/
theorem mask_signed (a : EReal) :
    (FloatOps.sitofp (F := Ideal) .f32
      ((FloatOps.cmpf (F := Ideal) (φ := .f32) .one a (Scalar.ofBits .f32 0x00000000#32)).setWidth 32) : EReal) = ind a := by
  show ((((Ideal.cmp .one a (Ideal.ofBits .f32 0x00000000#32)).setWidth 32).toInt : ℝ) : EReal) = ind a
  rw [Ideal.ofBits_zero_f32]
  unfold Ideal.cmp ind
  by_cases h : a = 0
  · simp [h]
  · simp [h]

/-- A choice on the comparison "not equal to zero" is a choice on the entry being nonzero. -/
theorem select_nonzero (a u w : EReal) :
    Scalar.select (FloatOps.cmpf (F := Ideal) (φ := .f32) .one a (Scalar.ofBits .f32 0x00000000#32)) u w
      = if a ≠ 0 then u else w := by
  show Scalar.select (Ideal.cmp .one a (Ideal.ofBits .f32 0x00000000#32)) u w = _
  rw [Ideal.ofBits_zero_f32]
  unfold Ideal.cmp Scalar.select
  by_cases h : a = 0
  · simp [h]
  · simp [h]

/-! ### A sum over the lanes of every row, then over the rows -/

/-- An `[m, n]` array summed along its rows, the column of row sums summed in turn, the total kept as a `[1, 1]` array:
    its one entry is the double sum over rows and lanes. -/
theorem total_entry {m n : ℕ} (w : FVec Ideal ⟨2, ![m, n]⟩ .f32)
    (h1 : (⟨2, ![m, n]⟩ : Shape).Reduces [1] (⟨1, ![m]⟩ : Shape)) (hc : (⟨1, ![m]⟩ : Shape).ShapeCasts ⟨2, ![m, 1]⟩)
    (h0 : (⟨2, ![m, 1]⟩ : Shape).Reduces [0] (⟨1, ![1]⟩ : Shape)) (hc' : (⟨1, ![1]⟩ : Shape).ShapeCasts ⟨2, ![1, 1]⟩)
    (hφ : FKind.Formats .f32) (hacc : (0x00000000#32 : BitVec 32) = FKind.add.neutral .f32 hφ)
    (hφ' : FKind.Formats .f32) (hacc' : (0x00000000#32 : BitVec 32) = FKind.add.neutral .f32 hφ')
    (j : (⟨2, ![1, 1]⟩ : Shape).Idx) :
    shapeCast ⟨2, ![1, 1]⟩ (multiReduction .add [0] ⟨1, ![1]⟩
        (shapeCast ⟨2, ![m, 1]⟩ (multiReduction .add [1] ⟨1, ![m]⟩ w 0x00000000#32 h1 hφ hacc) hc)
        0x00000000#32 h0 hφ' hacc') hc' j
      = ∑ p : Fin m, ∑ q : Fin n, w (ix2 p q) := by
  obtain ⟨u, c, rfl⟩ : ∃ (u : Fin 1) (c : Fin 1), j = ix2 u c := ⟨j 0, j 1, eq_ix2 j⟩
  rw [shapeCast_a_1a_apply, Cert.ColumnReads.multiReduction_add_col]
  refine Finset.sum_congr rfl fun p _ => ?_
  rw [Cert.MemAttn.Layout.shapeCast_a_a1_apply, Cert.MemAttn.Layout.multiReduction_add_row]

/-! ### The slab's values -/

/-- The mask of a slab at `(p, q)`. -/
theorem mask_entry (v19 : Vec Ideal S1x256x1024 .f32) (p : Fin 256) (q : Fin 1024) :
    k0_pay3 (F := Ideal) v19 (ix2 p q) = ind (v19 (ix3 (0 : Fin 1) p q)) := by
  unfold k0_pay3 k0_pay2
  show FloatOps.sitofp (F := Ideal) .f32 ((FloatOps.cmpf (F := Ideal) (φ := .f32) .one
    (shapeCast S256x1024 v19 shapeCasts_S1x256x1024_S256x1024 (ix2 p q)) (Scalar.ofBits .f32 0x00000000#32)).setWidth 32) = _
  rw [shapeCast_1ab_ab_apply, mask_signed]

/-- The masked slab at `(p, q)`. -/
theorem masked_entry (v19 : Vec Ideal S1x256x1024 .f32) (p : Fin 256) (q : Fin 1024) :
    k0_pay4 (F := Ideal) v19 (ix2 p q) = v19 (ix3 (0 : Fin 1) p q) * ind (v19 (ix3 (0 : Fin 1) p q)) := by
  unfold k0_pay4
  show k0_pay2 (F := Ideal) v19 (ix2 p q) * k0_pay3 (F := Ideal) v19 (ix2 p q) = _
  rw [mask_entry]
  unfold k0_pay2
  show shapeCast S256x1024 v19 shapeCasts_S1x256x1024_S256x1024 (ix2 p q) * _ = _
  rw [shapeCast_1ab_ab_apply]

/-- The running count after a slab: what it was plus the slab's number of nonzero entries. -/
theorem count_entry (a : FVec Ideal S1x1 .f32) (v19 : Vec Ideal S1x256x1024 .f32) (j : S1x1.Idx) :
    k0_pay5 (F := Ideal) a v19 j = a j + ∑ p : Fin 256, ∑ q : Fin 1024, ind (v19 (ix3 (0 : Fin 1) p q)) := by
  unfold k0_pay5
  show a j + _ = _
  refine congrArg (a j + ·) ((total_entry _ _ _ _ _ _ _ _ _ j).trans ?_)
  exact Finset.sum_congr rfl fun p _ => Finset.sum_congr rfl fun q _ => mask_entry v19 p q

/-- The running masked sum after a slab. -/
theorem sum_entry (a : FVec Ideal S1x1 .f32) (v19 : Vec Ideal S1x256x1024 .f32) (j : S1x1.Idx) :
    k0_pay6 (F := Ideal) a v19 j
      = a j + ∑ p : Fin 256, ∑ q : Fin 1024, v19 (ix3 (0 : Fin 1) p q) * ind (v19 (ix3 (0 : Fin 1) p q)) := by
  unfold k0_pay6
  show a j + _ = _
  refine congrArg (a j + ·) ((total_entry _ _ _ _ _ _ _ _ _ j).trans ?_)
  exact Finset.sum_congr rfl fun p _ => Finset.sum_congr rfl fun q _ => masked_entry v19 p q

/-- The running masked sum of squares after a slab. -/
theorem sumsq_entry (a : FVec Ideal S1x1 .f32) (v19 : Vec Ideal S1x256x1024 .f32) (j : S1x1.Idx) :
    k0_pay7 (F := Ideal) a v19 j
      = a j + ∑ p : Fin 256, ∑ q : Fin 1024,
          v19 (ix3 (0 : Fin 1) p q) * (v19 (ix3 (0 : Fin 1) p q) * ind (v19 (ix3 (0 : Fin 1) p q))) := by
  unfold k0_pay7
  show a j + _ = _
  refine congrArg (a j + ·) ((total_entry _ _ _ _ _ _ _ _ _ j).trans ?_)
  refine Finset.sum_congr rfl fun p _ => Finset.sum_congr rfl fun q _ => ?_
  show k0_pay2 (F := Ideal) v19 (ix2 p q) * k0_pay4 (F := Ideal) v19 (ix2 p q) = _
  rw [masked_entry]
  unfold k0_pay2
  show shapeCast S256x1024 v19 shapeCasts_S1x256x1024_S256x1024 (ix2 p q) * _ = _
  rw [shapeCast_1ab_ab_apply]

/-- The stored slab at `(u, p, q)`: the one-pass form of the sample's three totals and the entry. -/
theorem stored_entry (v0 v1 v2 : FVec Ideal S1x1 .f32) (v19 : Vec Ideal S1x256x1024 .f32) (u : Fin 1) (p : Fin 256) (q : Fin 1024) :
    k0_pay8 (F := Ideal) v0 v1 v2 v19 (ix3 u p q)
      = onePass (v0 (ix2 (0 : Fin 1) (0 : Fin 1))) (v1 (ix2 (0 : Fin 1) (0 : Fin 1))) (v2 (ix2 (0 : Fin 1) (0 : Fin 1)))
          (v19 (ix3 (0 : Fin 1) p q)) := by
  unfold k0_pay8
  rw [shapeCast_ab_1ab_apply]
  simp only [select_apply, mulf_apply, subf_apply, cmpf_apply, broadcast_apply]
  rw [Cert.ScalarBroadcast.broadcast_11_apply, Cert.ScalarBroadcast.broadcast_11_apply, shapeCast_1ab_ab_apply, select_nonzero]
  unfold onePass onePassVar
  rw [← ofBits_one]
  rfl

end Cert.KernelIdeal.Entries

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.KernelBlock.lean ====
/-
  What the kernel body leaves in its output block, as one function of its input block.

  The body sees one sample as a `[1, 4096, 1024]` block and walks it twice in 16 slabs of 256 rows. The first walk
  carries three running totals — the number of nonzero entries, their sum, the sum of their squares — each slab adding
  its own double sum over rows and lanes; after the 16 slabs they are the totals over all 4096 rows. The second walk
  stores, slab by slab, the one-pass normalisation of every entry from those totals. The 16 stored slabs tile the block,
  and every one of them is the same function of the entry's position, so the block ends holding that function.
-/
import proofs.«174254_j31172872634755_2_alg».proof.Proof.Gen.KernelIdeal.Frame
import proofs.«174254_j31172872634755_2_alg».proof.Proof.KernelEntries
import proofs.«174254_j31172872634755_2_alg».proof.Proof.LibUnitAxisSums
import Idealize.ShloMosaic.Lib.Writes

set_option maxRecDepth 16384

noncomputable section

open scoped BigOperators

namespace Cert.KernelIdeal.Block

open Idealize.ShloMosaic Idealize.ShloMosaic.ValueIdx Idealize.ShloMosaic.TcCoe Idealize.SL Idealize.SL.Sem
open Cert.KernelIdeal Cert.KernelIdeal.Gen Cert.MaskedNorm Cert.KernelIdeal.Entries

/-- Both walks make 16 trips. -/
theorem trips_first : k0_t1_loop.trips = 16 := by decide
theorem trips_second : k0_t2_loop.trips = 16 := by decide

/-- Row `p` of slab `k` is row `256·k + p` of the block. -/
def slabRow (k : ℕ) (p : Fin 256) : Fin 4096 := ⟨(256 * k + p.val) % 4096, Nat.mod_lt _ (by decide)⟩

variable (x0 : Vec Ideal S1x4096x1024 .f32)

/-- The total of `f` over the entries of slab `k`. -/
def slabTotal (f : EReal → EReal) (k : ℕ) : EReal :=
  ∑ p : Fin 256, ∑ q : Fin 1024, f (x0 (ix3 (0 : Fin 1) (slabRow k p) q))

/-- The total of `f` over the entries of the whole block. -/
def sampleTotal (f : EReal → EReal) : EReal :=
  ∑ r : Fin 4096, ∑ q : Fin 1024, f (x0 (ix3 (0 : Fin 1) r q))

/-- The 16 slab totals add up to the block's total: rows `256·k + p` for `k < 16`, `p < 256` are the rows below 4096. -/
theorem sum_slabTotal (f : EReal → EReal) : ∑ k ∈ Finset.range 16, slabTotal x0 f k = sampleTotal x0 f := by
  have h := sum_fin_blocks 16 256
    (fun r : Fin (16 * 256) => ∑ q : Fin 1024, f (x0 (ix3 (0 : Fin 1) (⟨r.val, r.isLt⟩ : Fin 4096) q)))
  rw [Finset.sum_range]
  refine Eq.trans ?_ h.symm
  refine Finset.sum_congr rfl fun b _ => Finset.sum_congr rfl fun p _ => Finset.sum_congr rfl fun q _ => ?_
  refine congrArg (fun r : Fin 4096 => f (x0 (ix3 (0 : Fin 1) r q))) (Fin.ext ?_)
  show (256 * b.val + p.val) % 4096 = 256 * b.val + p.val
  have := b.isLt; have := p.isLt
  omega

section Body

variable (c : Dev nD) (i : grid0.Coords) (arg1 : Memref sig .tc .vmem S1x4096x1024 .f32) (harg1 : arg1.IsWhole)
  (arg2 : Memref sig .tc .vmem S1x4096x1024 .f32) (harg2 : arg2.IsWhole)

/-- A slab loaded in the first walk, at `(0, p, q)`: the block's entry in row `256·k + p`. -/
theorem slab_entry (k : Fin k0_t1_loop.trips) (p : Fin 256) (q : Fin 1024) :
    View.readAt (Elt Ideal) arg1.view (Rect.unit (s := S1x4096x1024) (k0_off1 k) S1x256x1024.size (k0_off1_inb k)).toLoadRect
        (harg1.unread x0) (ix3 (0 : Fin 1) p q)
      = x0 (ix3 (0 : Fin 1) (slabRow k.val p) q) := by
  rw [View.readAt_eq_ld, harg1.read_unread]
  show x0 ((Rect.unit (s := S1x4096x1024) (k0_off1 k) S1x256x1024.size (k0_off1_inb k)).emb (ix3 (0 : Fin 1) p q)) = _
  refine congrArg x0 (funext fun a => Fin.ext ?_)
  show (k0_off1 k) a + 1 * ((ix3 (0 : Fin 1) p q) a).val = _
  rw [k0_off1_eq]
  have hk : k.val < 16 := trips_first ▸ k.isLt
  have hp := p.isLt
  match a with
  | ⟨0, _⟩ => rfl
  | ⟨1, _⟩ =>
    show 256 * k.val + 1 * p.val = (256 * k.val + p.val) % 4096
    omega
  | ⟨2, _⟩ =>
    show 0 + 1 * q.val = q.val
    omega

/-- One trip of the first walk adds the slab's three totals to the running ones. -/
theorem trip_totals (k : Fin k0_t1_loop.trips) (acc : FVec Ideal S1x1 .f32 × FVec Ideal S1x1 .f32 × FVec Ideal S1x1 .f32)
    (j : S1x1.Idx) :
    (tripR_k0_t1 (F := Ideal) Variants.none c none i arg1 harg1 arg2 harg2 (harg1.unread x0) k acc).1 j
        = acc.1 j + slabTotal x0 ind k.val
    ∧ (tripR_k0_t1 (F := Ideal) Variants.none c none i arg1 harg1 arg2 harg2 (harg1.unread x0) k acc).2.1 j
        = acc.2.1 j + slabTotal x0 (fun a => a * ind a) k.val
    ∧ (tripR_k0_t1 (F := Ideal) Variants.none c none i arg1 harg1 arg2 harg2 (harg1.unread x0) k acc).2.2 j
        = acc.2.2 j + slabTotal x0 (fun a => a * (a * ind a)) k.val := by
  unfold tripR_k0_t1 trip_k0_t1
  dsimp only
  refine ⟨?_, ?_, ?_⟩
  · rw [count_entry]
    exact congrArg (acc.1 j + ·) (Finset.sum_congr rfl fun p _ => Finset.sum_congr rfl fun q _ =>
      congrArg ind (slab_entry x0 arg1 harg1 k p q))
  · rw [sum_entry]
    exact congrArg (acc.2.1 j + ·) (Finset.sum_congr rfl fun p _ => Finset.sum_congr rfl fun q _ =>
      congrArg (fun a => a * ind a) (slab_entry x0 arg1 harg1 k p q))
  · rw [sumsq_entry]
    exact congrArg (acc.2.2 j + ·) (Finset.sum_congr rfl fun p _ => Finset.sum_congr rfl fun q _ =>
      congrArg (fun a => a * (a * ind a)) (slab_entry x0 arg1 harg1 k p q))

/-- Before trip `K` of the first walk the running totals are the totals of the slabs below `K`. -/
theorem running_totals (K : ℕ) (hK : K ≤ 16) (j : S1x1.Idx) :
    (st_k0_t1 (F := Ideal) Variants.none c none i arg1 harg1 arg2 harg2 (harg1.unread x0)
        (k0_pay1, k0_pay1, k0_pay1) K).1 j = ∑ k ∈ Finset.range K, slabTotal x0 ind k
    ∧ (st_k0_t1 (F := Ideal) Variants.none c none i arg1 harg1 arg2 harg2 (harg1.unread x0)
        (k0_pay1, k0_pay1, k0_pay1) K).2.1 j = ∑ k ∈ Finset.range K, slabTotal x0 (fun a => a * ind a) k
    ∧ (st_k0_t1 (F := Ideal) Variants.none c none i arg1 harg1 arg2 harg2 (harg1.unread x0)
        (k0_pay1, k0_pay1, k0_pay1) K).2.2 j = ∑ k ∈ Finset.range K, slabTotal x0 (fun a => a * (a * ind a)) k := by
  induction K with
  | zero =>
    have hz : (k0_pay1 (F := Ideal)) j = 0 := Ideal.ofBits_zero_f32
    rw [Finset.range_zero, Finset.sum_empty, Finset.sum_empty, Finset.sum_empty]
    exact ⟨hz, hz, hz⟩
  | succ K ih =>
    have hlt : K < k0_t1_loop.trips := by rw [trips_first]; omega
    obtain ⟨h1, h2, h3⟩ := ih (by omega)
    have e : st_k0_t1 (F := Ideal) Variants.none c none i arg1 harg1 arg2 harg2 (harg1.unread x0)
          (k0_pay1, k0_pay1, k0_pay1) (K + 1)
        = tripR_k0_t1 (F := Ideal) Variants.none c none i arg1 harg1 arg2 harg2 (harg1.unread x0) ⟨K, hlt⟩
            (st_k0_t1 (F := Ideal) Variants.none c none i arg1 harg1 arg2 harg2 (harg1.unread x0)
              (k0_pay1, k0_pay1, k0_pay1) K) :=
      st_k0_t1_succ (F := Ideal) Variants.none c none i arg1 harg1 arg2 harg2 (harg1.unread x0)
        (k0_pay1, k0_pay1, k0_pay1) ⟨K, hlt⟩
    obtain ⟨t1, t2, t3⟩ := trip_totals x0 c i arg1 harg1 arg2 harg2 ⟨K, hlt⟩
      (st_k0_t1 (F := Ideal) Variants.none c none i arg1 harg1 arg2 harg2 (harg1.unread x0)
        (k0_pay1, k0_pay1, k0_pay1) K) j
    rw [e, Finset.sum_range_succ, Finset.sum_range_succ, Finset.sum_range_succ, t1, t2, t3, h1, h2, h3]
    exact ⟨rfl, rfl, rfl⟩

/-- After the first walk the three running totals are the block's totals. -/
theorem final_totals (j : S1x1.Idx) :
    (st_k0_t1 (F := Ideal) Variants.none c none i arg1 harg1 arg2 harg2 (harg1.unread x0)
        (k0_pay1, k0_pay1, k0_pay1) k0_t1_loop.trips).1 j = sampleTotal x0 ind
    ∧ (st_k0_t1 (F := Ideal) Variants.none c none i arg1 harg1 arg2 harg2 (harg1.unread x0)
        (k0_pay1, k0_pay1, k0_pay1) k0_t1_loop.trips).2.1 j = sampleTotal x0 (fun a => a * ind a)
    ∧ (st_k0_t1 (F := Ideal) Variants.none c none i arg1 harg1 arg2 harg2 (harg1.unread x0)
        (k0_pay1, k0_pay1, k0_pay1) k0_t1_loop.trips).2.2 j = sampleTotal x0 (fun a => a * (a * ind a)) := by
  rw [trips_first]
  obtain ⟨h1, h2, h3⟩ := running_totals x0 c i arg1 harg1 arg2 harg2 16 le_rfl j
  rw [h1, h2, h3]
  exact ⟨sum_slabTotal x0 _, sum_slabTotal x0 _, sum_slabTotal x0 _⟩

/-- A slab stored in the second walk, at any of its positions: the one-pass form of the totals and of the block's entry
    at the place the position names in the block. -/
theorem stored_at (v0 v1 v2 : FVec Ideal S1x1 .f32) (k : Fin k0_t2_loop.trips) (y : S1x256x1024.Idx) :
    k0_pay8 (F := Ideal) v0 v1 v2
        (View.readAt (Elt Ideal) arg1.view (Rect.unit (s := S1x4096x1024) (k0_off2 k) S1x256x1024.size (k0_off2_inb k)).toLoadRect
          (harg1.unread x0)) y
      = onePass (v0 (ix2 (0 : Fin 1) (0 : Fin 1))) (v1 (ix2 (0 : Fin 1) (0 : Fin 1))) (v2 (ix2 (0 : Fin 1) (0 : Fin 1)))
          (x0 ((Rect.unit (s := S1x4096x1024) (k0_off2 k) S1x256x1024.size (k0_off2_inb k)).emb y)) := by
  obtain ⟨u, p, q, rfl⟩ : ∃ (u : Fin 1) (p : Fin 256) (q : Fin 1024), y = ix3 u p q := ⟨y 0, y 1, y 2, eq_ix3 y⟩
  have hu : u = 0 := Subsingleton.elim _ _
  subst hu
  rw [stored_entry, View.readAt_eq_ld, harg1.read_unread]
  rfl

/-- Every slab stored before trip `K` of the second walk is that one function of the block position. -/
theorem pieces_agree (v0 v1 v2 : FVec Ideal S1x1 .f32) (K : ℕ) :
    ∀ pc ∈ pb_k0_t2 (F := Ideal) Variants.none c none i arg1 harg1 arg2 harg2 v0 v1 v2 (harg1.unread x0) K,
      ∀ y : pc.1.shape.Idx, pc.2 y
        = onePass (v0 (ix2 (0 : Fin 1) (0 : Fin 1))) (v1 (ix2 (0 : Fin 1) (0 : Fin 1))) (v2 (ix2 (0 : Fin 1) (0 : Fin 1)))
            (x0 (pc.1.emb y)) := by
  induction K with
  | zero => intro pc h; exact absurd h List.not_mem_nil
  | succ K ih =>
    intro pc h
    rw [pb_k0_t2.eq_2] at h
    unfold pb_k0_t2Step at h
    by_cases hlt : K < k0_t2_loop.trips
    · rw [dif_pos hlt] at h
      rcases List.mem_append.mp h with h1 | h2
      · unfold tripL_k0_t2 trip_k0_t2 at h1
        dsimp only at h1
        rw [List.mem_singleton] at h1
        subst h1
        intro y
        exact stored_at x0 arg1 harg1 v0 v1 v2 ⟨K, hlt⟩ y
      · exact ih pc h2
    · rw [dif_neg hlt] at h
      exact ih pc h

/-- THE BLOCK: the output block after the body is, entry by entry, the one-pass form of the input block's three totals
    and of the input block's entry at the same position. -/
theorem block_eq :
    out0_A_1 (F := Ideal) c i arg1 harg1 arg2 harg2 x0
      = fun y => onePass (sampleTotal x0 ind) (sampleTotal x0 (fun a => a * ind a))
          (sampleTotal x0 (fun a => a * (a * ind a))) (x0 y) := by
  funext y
  unfold out0_A_1
  refine View.read_writes_apply_of_pieces _ _
    (fun y => onePass (sampleTotal x0 ind) (sampleTotal x0 (fun a => a * ind a))
      (sampleTotal x0 (fun a => a * (a * ind a))) (x0 y)) _ ?_ y (cover0_A_1 c i arg1 harg1 arg2 harg2 x0 y)
  have e : (kernelRun0_A (F := Ideal) c i arg1 harg1 arg2 harg2 x0).1 =
      pb_k0_t2 Variants.none c none i arg1 harg1 arg2 harg2
      (st_k0_t1 Variants.none c none i arg1 harg1 arg2 harg2 (harg1.unread x0) (k0_pay1, k0_pay1, k0_pay1) k0_t1_loop.trips).1
      (st_k0_t1 Variants.none c none i arg1 harg1 arg2 harg2 (harg1.unread x0) (k0_pay1, k0_pay1, k0_pay1) k0_t1_loop.trips).2.1
      (st_k0_t1 Variants.none c none i arg1 harg1 arg2 harg2 (harg1.unread x0) (k0_pay1, k0_pay1, k0_pay1) k0_t1_loop.trips).2.2
      (harg1.unread x0) k0_t2_loop.trips := by
    unfold kernelRun0_A
    rfl
  rw [e]
  intro pc hpc x
  obtain ⟨h1, h2, h3⟩ := final_totals x0 c i arg1 harg1 arg2 harg2 (ix2 (0 : Fin 1) (0 : Fin 1))
  rw [pieces_agree x0 c i arg1 harg1 arg2 harg2 _ _ _ _ pc hpc x, h1, h2, h3]

end Body

end Cert.KernelIdeal.Block

end
-- ==== Proof.KernelArray.lean ====
/-
  The kernel's result array as one function of its argument array.

  The program views the argument `[16, 4, 1024, 1024]` as `[16, 4096, 1024]` (one sample per leading index), runs the
  body once per sample on that sample's `[1, 4096, 1024]` block, and views the `[16, 4096, 1024]` result back as
  `[16, 4, 1024, 1024]`. Block `t` of both arrays is the slab with leading index `t`, so the 16 written blocks tile the
  result, and each is the body's function of the matching input block: the result at `(b, r, q)` is the one-pass
  normalisation of the entry from the three totals of sample `b`.
-/
import proofs.«174254_j31172872634755_2_alg».proof.Proof.Gen.KernelIdeal.Frame
import proofs.«174254_j31172872634755_2_alg».proof.Proof.KernelBlock
import Idealize.ShloMosaic.Lib.Pipeline.Value
import Idealize.ShloMosaic.Lib.StableHlo.Run

set_option maxRecDepth 16384

noncomputable section

open scoped BigOperators

namespace Cert.KernelIdeal.Array

open Idealize.ShloMosaic Idealize.ShloMosaic.ValueIdx Idealize.ShloMosaic.TcCoe Idealize.ShloMosaic.Tactic
open Idealize.SL Idealize.SL.Sem Idealize.ShloMosaic.StableHlo
open Cert.KernelIdeal Cert.KernelIdeal.Gen Cert.MaskedNorm Cert.KernelIdeal.Block

/-- The total of `f` over the entries of sample `b` of a `[16, 4096, 1024]` array. -/
def rowsTotal (X : S16x4096x1024.Idx → EReal) (b : Fin 16) (f : EReal → EReal) : EReal :=
  ∑ r : Fin 4096, ∑ q : Fin 1024, f (X (ix3 b r q))

/-- Every sample normalised by the one-pass form from its own three totals. -/
def normRows (X : S16x4096x1024.Idx → EReal) : S16x4096x1024.Idx → EReal := fun i =>
  onePass (rowsTotal X (i 0) ind) (rowsTotal X (i 0) (fun a => a * ind a))
    (rowsTotal X (i 0) (fun a => a * (a * ind a))) (X i)

/-- The one-pass form of equal arguments. -/
theorem onePass_congr {n n' sx sx' sx2 sx2' x x' : EReal} (h1 : n = n') (h2 : sx = sx') (h3 : sx2 = sx2') (h4 : x = x') :
    onePass n sx sx2 x = onePass n' sx' sx2' x' := by rw [h1, h2, h3, h4]

/-- A block whose entries are sample `b`'s has sample `b`'s totals. -/
theorem sampleTotal_eq (x0 : Vec Ideal S1x4096x1024 .f32) (X : S16x4096x1024.Idx → EReal) (b : Fin 16)
    (h : ∀ r q, x0 (ix3 (0 : Fin 1) r q) = X (ix3 b r q)) (f : EReal → EReal) :
    sampleTotal x0 f = rowsTotal X b f :=
  Finset.sum_congr rfl fun r _ => Finset.sum_congr rfl fun q _ => congrArg f (h r q)

variable (m : (ℓ : Loc nD τ sig) → Buf (Elt Ideal) ℓ) (ρ : Dev nD → PrngReg)

/-- Both windows' block at point `t` is the slab with leading index `t`. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of the normalised array of what the region finds in its input array. -/
theorem flushed_eq (c : Dev nD) (t : Fin cfg0.N) :
    (dats m 0 c).flushed 1 t = ((cfg0.win 1).blk t).view.read (Elt Ideal) (normRows (V m c main_v0)) := by
  show (cfg0.win 1).cut (grid0.coords t) ((dats m 0 c).after 1 t) = _
  rw [after0_1]
  unfold outsAt0
  rw [block_eq]
  obtain ⟨e0, e1, e2, e3, e4, e5⟩ := idx_facts t
  have ht : t.val < 16 := N_0 ▸ t.isLt
  funext y
  have hy0 : (y 0).val < 1 := (y 0).isLt
  have hb : ∀ (r : Fin 4096) (q : Fin 1024),
      iblk m c 0 t (ix3 (0 : Fin 1) r q) = V m c main_v0 (ix3 (⟨t.val, ht⟩ : Fin 16) r q) := fun r q => by
    show V m c main_v0 (((cfg0.win 0).blk t).view.emb (ix3 (0 : Fin 1) r q)) = _
    refine congrArg (V m c main_v0) (funext fun a => Fin.ext ?_)
    match a with
    | ⟨0, _⟩ => show win0_0.index t (0 : Fin 3) * 1 + 1 * 0 = t.val; omega
    | ⟨1, _⟩ => show win0_0.index t (1 : Fin 3) * 4096 + 1 * r.val = r.val; omega
    | ⟨2, _⟩ => show win0_0.index t (2 : Fin 3) * 1024 + 1 * q.val = q.val; omega
  have hy : iblk m c 0 t y = V m c main_v0 (((cfg0.win 1).blk t).view.emb y) := by
    show V m c main_v0 (((cfg0.win 0).blk t).view.emb y) = _
    refine congrArg (V m c main_v0) (funext fun a => Fin.ext ?_)
    match a with
    | ⟨0, _⟩ => show win0_0.index t (0 : Fin 3) * 1 + 1 * (y 0).val = win0_1.index t (0 : Fin 3) * 1 + 1 * (y 0).val; omega
    | ⟨1, _⟩ => show win0_0.index t (1 : Fin 3) * 4096 + 1 * (y 1).val = win0_1.index t (1 : Fin 3) * 4096 + 1 * (y 1).val; omega
    | ⟨2, _⟩ => show win0_0.index t (2 : Fin 3) * 1024 + 1 * (y 2).val = win0_1.index t (2 : Fin 3) * 1024 + 1 * (y 2).val; omega
  have h0 : (((cfg0.win 1).blk t).view.emb y) 0 = (⟨t.val, ht⟩ : Fin 16) := Fin.ext (by
    show win0_1.index t (0 : Fin 3) * 1 + 1 * (y 0).val = t.val
    omega)
  show onePass (sampleTotal (iblk m c 0 t) ind) (sampleTotal (iblk m c 0 t) (fun a => a * ind a))
      (sampleTotal (iblk m c 0 t) (fun a => a * (a * ind a))) (iblk m c 0 t y)
    = normRows (V m c main_v0) (((cfg0.win 1).blk t).view.emb y)
  unfold normRows
  rw [h0]
  exact onePass_congr (sampleTotal_eq (iblk m c 0 t) (V m c main_v0) ⟨t.val, ht⟩ hb _)
    (sampleTotal_eq (iblk m c 0 t) (V m c main_v0) ⟨t.val, ht⟩ hb _)
    (sampleTotal_eq (iblk m c 0 t) (V m c main_v0) ⟨t.val, ht⟩ hb _) hy

/-- An index of the array is in point `t`'s block iff each coordinate is in the block's range on its axis. -/
theorem mem_blk (t : Fin cfg0.N) (i : S16x4096x1024.Idx) :
    i ∈ ((cfg0.win 1).blk t).view.set ↔ ∀ a : Fin 3, win0_1.index t a * S1x4096x1024.size a ≤ (i a).val
      ∧ (i a).val < win0_1.index t a * S1x4096x1024.size a + S1x4096x1024.size a := by
  show i ∈ ((View.whole main_v1).slice (win0_1.rect t)).set ↔ _
  rw [View.set_slice_whole, Rect.mem_set_unit]
  exact Iff.rfl

/-- THE ARRAY after the region: the normalised array of what the region found in its input array. The point that covers
    an index is the one numbered by its leading coordinate. -/
theorem final (c : Dev nD) : (dats m 0 c).arrAt 1 cfg0.N = normRows (V m c main_v0) :=
  (dats m 0 c).arrAt_eq_of_cover 1 (normRows (V m c main_v0)) (fun t _ => flushed_eq m c t) fun i => by
    have hi0 : (i 0).val < 16 := (i 0).isLt
    have hi1 : (i 1).val < 4096 := (i 1).isLt
    have hi2 : (i 2).val < 1024 := (i 2).isLt
    have ht : (i 0).val < cfg0.N := by rw [show cfg0.N = 16 from N_0]; exact hi0
    refine ⟨⟨(i 0).val, ht⟩, flush0_1 _, ?_⟩
    obtain ⟨-, -, -, e3', e4, e5⟩ := idx_facts ⟨(i 0).val, ht⟩
    have e3 : win0_1.index (⟨(i 0).val, ht⟩ : Fin cfg0.N) (0 : Fin 3) = (i 0).val := e3'
    rw [mem_blk]
    intro a
    match a with
    | ⟨0, _⟩ =>
      show win0_1.index _ (0 : Fin 3) * 1 ≤ (i 0).val ∧ (i 0).val < win0_1.index _ (0 : Fin 3) * 1 + 1
      rw [e3]; omega
    | ⟨1, _⟩ =>
      show win0_1.index _ (1 : Fin 3) * 4096 ≤ (i 1).val ∧ (i 1).val < win0_1.index _ (1 : Fin 3) * 4096 + 4096
      rw [e4]; omega
    | ⟨2, _⟩ =>
      show win0_1.index _ (2 : Fin 3) * 1024 ≤ (i 2).val ∧ (i 2).val < win0_1.index _ (2 : Fin 3) * 1024 + 1024
      rw [e5]; omega

/-- What the region finds in its input array: the argument viewed as `[16, 4096, 1024]`. -/
theorem entry_eq (c : Dev nD) :
    (V m c main_v0 : S16x4096x1024.Idx → EReal)
      = shapeCast S16x4096x1024 (m ((c : Thread nD τ).loc main_arg0)) shapeCasts_S16x4x1024x1024_S16x4096x1024 := by
  show StableHlo.after hostOps0 (fun b => m (c, b)) (Proc.devRef .tc main_v0) = _
  after_results
  rfl

/-- The program's result as a function of its argument: viewed by samples, normalised, viewed back. -/
def result (X : S16x4x1024x1024.Idx → EReal) : S16x4x1024x1024.Idx → EReal :=
  shapeCast S16x4x1024x1024 (normRows (shapeCast S16x4096x1024 X shapeCasts_S16x4x1024x1024_S16x4096x1024))
    shapeCasts_S16x4096x1024_S16x4x1024x1024

/-- What the line after the region leaves in the result: the region's array viewed back as `[16, 4, 1024, 1024]`. -/
theorem tail_eq (c : Dev nD) :
    (Pipeline.afterTail₀ cfgs (dats m) 0 (V0 m) [hostOps1] c main_v2 : S16x4x1024x1024.Idx → EReal)
      = result (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = normRows (shapeCast S16x4096x1024 (m ((c : Thread nD τ).loc main_arg0)) shapeCasts_S16x4x1024x1024_S16x4096x1024) :=
    ((Pipeline.withArrays_arr spec0 launch0.win.arr_inj c _ _ 1).trans (final m c)).trans (congrArg normRows (entry_eq m c))
  unfold result
  rw [← hw]
  rfl

/-- The run, read: the result at `result` of the argument, the argument unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.Array

end
-- ==== Proof.ReferenceEntries.lean ====
/-
  The reference read one entry at a time, on the extended reals.

  The reference works on the `[16, 4, 1024, 1024]` array directly. Every one of its sums runs over the last three axes,
  that is over the entries of one sample; a sample's entries are numbered here by a row `r < 4096` (the channel and
  the height together, `r = 1024·channel + height`) and a lane `q < 1024`, the same numbering the kernel's
  `[16, 4096, 1024]` view uses. Stage by stage the reference at position `(r, q)` of sample `b` is: the mask, the
  masked mean, the re-centred entry, the mean of the re-centred entries, the variance, and last the two-pass
  normalisation `twoPass` of the sample's entries.
-/
import proofs.«174254_j31172872634755_2_alg».proof.Proof.Gen.ReferenceIdeal.Read
import proofs.«174254_j31172872634755_2_alg».proof.Proof.LibMaskedStats
import Idealize.ShloMosaic.Lib.IdealHost
import Idealize.ShloMosaic.Lib.ValueIdx
import Idealize.ShloMosaic.PureOps.Ideal.Laws

noncomputable section

open scoped BigOperators

namespace Cert.ReferenceIdeal.Entries

open Idealize.ShloMosaic Idealize.ShloMosaic.ValueIdx Cert.ReferenceIdeal Cert.ReferenceIdeal.Gen Cert.ReferenceIdeal.Read
open Cert.MaskedNorm

/-- Position `(r, q)` of sample `b`: channel `r / 1024`, height `r % 1024`, lane `q`. -/
def sampleIdx (b : Fin 16) (p : Fin 4096 × Fin 1024) : S16x4x1024x1024.Idx :=
  ix4 b (⟨p.1.val / 1024, by have := p.1.isLt; omega⟩ : Fin 4) (⟨p.1.val % 1024, Nat.mod_lt _ (by decide)⟩ : Fin 1024) p.2

/-- The one entry of the `[16, 1, 1, 1]` array of per-sample statistics that belongs to sample `b`. -/
def statIdx (b : Fin 16) : S16x1x1x1.Idx := ix4 b (0 : Fin 1) (0 : Fin 1) (0 : Fin 1)

/-- Distinct positions of a sample are distinct indices. -/
theorem sampleIdx_injective (b : Fin 16) : Function.Injective (sampleIdx b) := by
  intro p p' h
  have h1 : p.1.val / 1024 = p'.1.val / 1024 := congrArg (fun i : S16x4x1024x1024.Idx => (i 1).val) h
  have h2 : p.1.val % 1024 = p'.1.val % 1024 := congrArg (fun i : S16x4x1024x1024.Idx => (i 2).val) h
  have h3 : p.2.val = p'.2.val := congrArg (fun i : S16x4x1024x1024.Idx => (i 3).val) h
  exact Prod.ext (Fin.ext (by omega)) (Fin.ext h3)

/-- The indices that drop to sample `b` are exactly the positions of sample `b`. -/
theorem filter_sample (h : S16x4x1024x1024.ReducesTo [1, 2, 3] S16) (b : Fin 16) :
    Finset.univ.filter (fun i : S16x4x1024x1024.Idx => h.drop i = ix1 b)
      = Finset.univ.map ⟨sampleIdx b, sampleIdx_injective b⟩ := by
  ext i
  simp only [Finset.mem_filter, Finset.mem_univ, true_and, Finset.mem_map, Function.Embedding.coeFn_mk]
  constructor
  · intro hd
    have h0 : (i 0).val = b.val :=
      (h.drop_apply_val_of_eq i (0 : Fin 1) (0 : Fin 4)).symm.trans (congrArg (fun j : S16.Idx => (j 0).val) hd)
    have h1 : (i 1).val < 4 := (i 1).isLt
    have h2 : (i 2).val < 1024 := (i 2).isLt
    refine ⟨((⟨1024 * (i 1).val + (i 2).val, by omega⟩ : Fin 4096), (⟨(i 3).val, (i 3).isLt⟩ : Fin 1024)), ?_⟩
    funext a
    apply Fin.ext
    match a with
    | ⟨0, _⟩ => exact h0.symm
    | ⟨1, _⟩ =>
      show (1024 * (i 1).val + (i 2).val) / 1024 = (i 1).val
      omega
    | ⟨2, _⟩ =>
      show (1024 * (i 1).val + (i 2).val) % 1024 = (i 2).val
      omega
    | ⟨3, _⟩ => rfl
  · rintro ⟨p, rfl⟩
    funext a
    apply Fin.ext
    match a with
    | ⟨0, _⟩ => exact h.drop_apply_val_of_eq (sampleIdx b p) (0 : Fin 1) (0 : Fin 4)

/-- A sum over the indices whose leading coordinate is `b` is the sum over the positions of sample `b`. -/
theorem sum_sample (h : S16x4x1024x1024.ReducesTo [1, 2, 3] S16) (b : Fin 16) (g : S16x4x1024x1024.Idx → EReal) :
    ∑ i ∈ Finset.univ.filter (fun i => h.drop i = ix1 b), g i = ∑ p : Fin 4096 × Fin 1024, g (sampleIdx b p) := by
  rw [filter_sample, Finset.sum_map]
  rfl

/-- The host's sum over the last three axes, from a zero start, at sample `b`: the sum over the sample's positions. -/
theorem reduce_sample (x : FVec Ideal S16x4x1024x1024 .f32) (init : S_.Idx → Ideal .f32) (hinit : ∀ k, init k = 0)
    (h : S16x4x1024x1024.ReducesTo [1, 2, 3] S16) (hu : 0 < S_.numel) (b : Fin 16) :
    Host.reduceAdd x init h hu (ix1 b) = ∑ p : Fin 4096 × Fin 1024, x (sampleIdx b p) := by
  rw [hostReduceAdd_apply]
  unfold Ideal.hostReduceAdd
  rw [hinit, zero_add, sum_sample]

/-- A choice on the comparison "not equal" against zero is a choice on the entry being nonzero. -/
theorem select_nonzero (a u w : EReal) :
    Scalar.select (Ideal.cmp .une a 0) u w = if a ≠ 0 then u else w := by
  unfold Ideal.cmp Scalar.select
  by_cases h : a = 0
  · simp [h]
  · simp [h]

section Sample

variable (X : S16x4x1024x1024.Idx → EReal) (b : Fin 16)

/-- The entries of sample `b`, by position. -/
def xs : Fin 4096 × Fin 1024 → EReal := fun p => X (sampleIdx b p)

/-- The statistic arrays are read at sample `b`'s entry from every position of the sample, -/
theorem stat_of_pos (p : Fin 4096 × Fin 1024) : idx_main_v9 (sampleIdx b p) = statIdx b :=
  funext fun a => match a with
    | ⟨0, _⟩ => rfl
    | ⟨1, _⟩ => rfl
    | ⟨2, _⟩ => rfl
    | ⟨3, _⟩ => rfl

/-- and that entry is the per-sample vector's entry `b`. -/
theorem vec_of_stat : idx_main_v4 (statIdx b) = ix1 b :=
  funext fun a => match a with
    | ⟨0, _⟩ => rfl

theorem zero_apply (i : S16x4x1024x1024.Idx) : val_main_v0 (F := Ideal) i = 0 := by
  rw [val_main_v0_apply, val_main_cst_apply]
  exact Ideal.ofBits_zero_f32

/-- The comparison at an entry. -/
theorem cmp_apply (i : S16x4x1024x1024.Idx) : val_main_v1 (F := Ideal) X i = Ideal.cmp .une (X i) 0 := by
  rw [val_main_v1_apply, zero_apply]
  rfl

/-- The mask at an entry. -/
theorem mask_apply (i : S16x4x1024x1024.Idx) : val_main_v2 (F := Ideal) X i = ind (X i) := by
  rw [val_main_v2_apply, cmp_apply]
  show (((Ideal.cmp .une (X i) 0).toNat : ℝ) : EReal) = ind (X i)
  unfold Ideal.cmp ind
  by_cases h : X i = 0
  · simp [h]
  · simp [h]

/-- The count of sample `b`. -/
theorem count_apply : val_main_v3 (F := Ideal) X (ix1 b) = ∑ p, ind (xs X b p) := by
  unfold val_main_v3
  refine (reduce_sample (val_main_v2 (F := Ideal) X) (val_main_cst_0 (F := Ideal))
    (fun _ => Ideal.ofBits_zero_f32 : ∀ k, val_main_cst_0 (F := Ideal) k = 0) _ _ b).trans ?_
  exact Finset.sum_congr rfl fun p _ => mask_apply X _

theorem count_stat : val_main_v4 (F := Ideal) X (statIdx b) = ∑ p, ind (xs X b p) := by
  rw [val_main_v4_apply, vec_of_stat, count_apply]

/-- The masked sum of sample `b`. -/
theorem sum_apply : val_main_v6 (F := Ideal) X (ix1 b) = ∑ p, xs X b p * ind (xs X b p) := by
  unfold val_main_v6
  refine (reduce_sample (val_main_v5 (F := Ideal) X) (val_main_cst_1 (F := Ideal))
    (fun _ => Ideal.ofBits_zero_f32 : ∀ k, val_main_cst_1 (F := Ideal) k = 0) _ _ b).trans ?_
  refine Finset.sum_congr rfl fun p _ => ?_
  rw [val_main_v5_apply, mask_apply]
  rfl

/-- The masked mean of sample `b`. -/
theorem mean_stat : val_main_v8 (F := Ideal) X (statIdx b) = mean (xs X b) := by
  rw [val_main_v8_apply, val_main_v7_apply, count_stat]
  show Ideal.div (val_main_v6 (F := Ideal) X (idx_main_v7 (statIdx b))) _ = _
  rw [show idx_main_v7 (statIdx b) = ix1 b from vec_of_stat b, sum_apply]
  rfl

/-- The re-centred entry at a position of sample `b`. -/
theorem cen_apply (p : Fin 4096 × Fin 1024) : val_main_v11 (F := Ideal) X (sampleIdx b p) = cen (xs X b) p := by
  rw [val_main_v11_apply, cmp_apply, select_nonzero, val_main_v10_apply, val_main_v9_apply, stat_of_pos, mean_stat]
  rfl

/-- The masked sum of the re-centred entries of sample `b`. -/
theorem censum_apply : val_main_v13 (F := Ideal) X (ix1 b) = ∑ p, cen (xs X b) p * ind (xs X b p) := by
  unfold val_main_v13
  refine (reduce_sample (val_main_v12 (F := Ideal) X) (val_main_cst_2 (F := Ideal))
    (fun _ => Ideal.ofBits_zero_f32 : ∀ k, val_main_cst_2 (F := Ideal) k = 0) _ _ b).trans ?_
  refine Finset.sum_congr rfl fun p _ => ?_
  rw [val_main_v12_apply, mask_apply, cen_apply]
  rfl

/-- The mean of the re-centred entries of sample `b`. -/
theorem mean2_stat : val_main_v15 (F := Ideal) X (statIdx b) = mean2 (xs X b) := by
  rw [val_main_v15_apply, val_main_v14_apply, count_stat]
  show Ideal.div (val_main_v13 (F := Ideal) X (idx_main_v14 (statIdx b))) _ = _
  rw [show idx_main_v14 (statIdx b) = ix1 b from vec_of_stat b, censum_apply]
  rfl

/-- The masked sum of squared deviations of sample `b`. -/
theorem sqsum_apply : val_main_v20 (F := Ideal) X (ix1 b)
    = ∑ p, ind (xs X b p) * ((cen (xs X b) p - mean2 (xs X b)) * (cen (xs X b) p - mean2 (xs X b))) := by
  unfold val_main_v20
  refine (reduce_sample (val_main_v19 (F := Ideal) X) (val_main_cst_3 (F := Ideal))
    (fun _ => Ideal.ofBits_zero_f32 : ∀ k, val_main_cst_3 (F := Ideal) k = 0) _ _ b).trans ?_
  refine Finset.sum_congr rfl fun p _ => ?_
  rw [val_main_v19_apply, mask_apply, val_main_v18_apply, val_main_v17_apply, cen_apply, val_main_v16_apply]
  rw [show idx_main_v16 (sampleIdx b p) = statIdx b from stat_of_pos b p, mean2_stat]
  rfl

/-- The variance of sample `b`. -/
theorem var_stat : val_main_v24 (F := Ideal) X (statIdx b) = twoPassVar (xs X b) := by
  rw [val_main_v24_apply, val_main_v21_apply, val_main_v23_apply, count_stat, val_main_v22_apply, val_main_cst_4_apply]
  show Ideal.div (val_main_v20 (F := Ideal) X (idx_main_v21 (statIdx b))) (_ - Ideal.ofBits .f32 0x3F800000#32) = _
  rw [show idx_main_v21 (statIdx b) = ix1 b from vec_of_stat b, sqsum_apply, ofBits_one]
  rfl

/-- The stabilised standard deviation of sample `b`. -/
theorem std_stat : val_main_v27 (F := Ideal) X (statIdx b) = Ideal.sqrt (twoPassVar (xs X b)) + epsW := by
  rw [val_main_v27_apply, val_main_v25_apply, var_stat, val_main_v26_apply, val_main_cst_5_apply]
  simp only [Ideal.addf_def, Ideal.hostUnary_sqrt_def, Ideal.ofBits_def, epsW]

/-- THE REFERENCE at a position of sample `b`: the two-pass form of the sample's entries. -/
theorem result_apply (p : Fin 4096 × Fin 1024) : val_main_v30 (F := Ideal) X (sampleIdx b p) = twoPass (xs X b) p := by
  rw [val_main_v30_apply, cmp_apply, select_nonzero, val_main_v29_apply, cen_apply, val_main_v28_apply]
  rw [show idx_main_v28 (sampleIdx b p) = statIdx b from stat_of_pos b p, std_stat]
  rfl

end Sample

end Cert.ReferenceIdeal.Entries

end
-- ==== Proof.Bridge.lean ====
/-
  The kernel's result and the reference's result are one function of a real argument array.

  The kernel's `[16, 4096, 1024]` view and the reference's `[16, 4, 1024, 1024]` array hold the same entry at row
  `r = 1024·channel + height` of a sample, because both are row-major; so the kernel's three totals of sample `b` are
  the sums over the positions `(r, q)` of the sample that the reference's sums run over, and at each position the
  kernel's one-pass form of them is the reference's two-pass form (`onePass_eq_twoPass`, which needs every entry real).
-/
import proofs.«174254_j31172872634755_2_alg».proof.Proof.KernelArray
import proofs.«174254_j31172872634755_2_alg».proof.Proof.ReferenceEntries
import proofs.«174254_j31172872634755_2_alg».proof.Proof.LibMaskedStats
import Idealize.ShloMosaic.Lib.Pipeline.Value
import Idealize.ShloMosaic.Lib.ValueIdx

set_option maxRecDepth 16384

noncomputable section

open scoped BigOperators

namespace Cert.Proof.Bridge

open Idealize.ShloMosaic Idealize.ShloMosaic.ValueIdx Cert.MaskedNorm
open Cert.KernelIdeal.Array Cert.ReferenceIdeal.Entries

/-- Every index of the `[16, 4, 1024, 1024]` array is a position of a sample. -/
theorem exists_sampleIdx (i : (⟨4, ![16, 4, 1024, 1024]⟩ : Shape).Idx) : ∃ b p, i = sampleIdx b p := by
  have h1 : (i 1).val < 4 := (i 1).isLt
  have h2 : (i 2).val < 1024 := (i 2).isLt
  refine ⟨i 0, ((⟨1024 * (i 1).val + (i 2).val, by omega⟩ : Fin 4096), i 3), ?_⟩
  funext a
  apply Fin.ext
  match a with
  | ⟨0, _⟩ => rfl
  | ⟨1, _⟩ =>
    show (i 1).val = (1024 * (i 1).val + (i 2).val) / 1024
    omega
  | ⟨2, _⟩ =>
    show (i 2).val = (1024 * (i 1).val + (i 2).val) % 1024
    omega
  | ⟨3, _⟩ => rfl

section

variable (X : (⟨4, ![16, 4, 1024, 1024]⟩ : Shape).Idx → EReal)
  (h0 : (⟨4, ![16, 4, 1024, 1024]⟩ : Shape).ShapeCasts ⟨3, ![16, 4096, 1024]⟩)
  (h1 : (⟨3, ![16, 4096, 1024]⟩ : Shape).ShapeCasts ⟨4, ![16, 4, 1024, 1024]⟩)

/-- The argument viewed by samples, at `(b, r, q)`: the argument at position `(r, q)` of sample `b`. -/
theorem view_apply (b : Fin 16) (r : Fin 4096) (q : Fin 1024) :
    shapeCast ⟨3, ![16, 4096, 1024]⟩ X h0 (ix3 b r q) = X (sampleIdx b (r, q)) :=
  shapeCast_apply X h0 _ _ (by
    rw [Shape.rowMajor_val_four, Shape.rowMajor_val_three]
    show ((b.val * 4 + r.val / 1024) * 1024 + r.val % 1024) * 1024 + q.val = (b.val * 4096 + r.val) * 1024 + q.val
    have := r.isLt
    omega)

/-- An array of samples viewed back, at position `(r, q)` of sample `b`: its entry `(b, r, q)`. -/
theorem view_back_apply (Y : (⟨3, ![16, 4096, 1024]⟩ : Shape).Idx → EReal) (b : Fin 16) (p : Fin 4096 × Fin 1024) :
    shapeCast ⟨4, ![16, 4, 1024, 1024]⟩ Y h1 (sampleIdx b p) = Y (ix3 b p.1 p.2) :=
  shapeCast_apply Y h1 _ _ (by
    rw [Shape.rowMajor_val_four, Shape.rowMajor_val_three]
    show (b.val * 4096 + p.1.val) * 1024 + p.2.val = ((b.val * 4 + p.1.val / 1024) * 1024 + p.1.val % 1024) * 1024 + p.2.val
    have := p.1.isLt
    omega)

/-- A total over the rows and lanes of sample `b` of the viewed argument is the sum over the sample's positions. -/
theorem rowsTotal_view (b : Fin 16) (f : EReal → EReal) :
    rowsTotal (shapeCast ⟨3, ![16, 4096, 1024]⟩ X h0) b f = ∑ p : Fin 4096 × Fin 1024, f (xs X b p) := by
  unfold rowsTotal
  rw [Fintype.sum_prod_type]
  exact Finset.sum_congr rfl fun r _ => Finset.sum_congr rfl fun q _ => congrArg f (view_apply X h0 b r q)

/-- THE BRIDGE at a position of a sample. -/
theorem entry_eq (hX : ∀ i, ∃ r : ℝ, X i = (r : EReal)) (b : Fin 16) (p : Fin 4096 × Fin 1024) :
    shapeCast ⟨4, ![16, 4, 1024, 1024]⟩ (normRows (shapeCast ⟨3, ![16, 4096, 1024]⟩ X h0)) h1 (sampleIdx b p)
      = twoPass (xs X b) p := by
  rw [view_back_apply]
  show onePass (rowsTotal (shapeCast ⟨3, ![16, 4096, 1024]⟩ X h0) b ind)
      (rowsTotal (shapeCast ⟨3, ![16, 4096, 1024]⟩ X h0) b (fun a => a * ind a))
      (rowsTotal (shapeCast ⟨3, ![16, 4096, 1024]⟩ X h0) b (fun a => a * (a * ind a)))
      (shapeCast ⟨3, ![16, 4096, 1024]⟩ X h0 (ix3 b p.1 p.2)) = _
  rw [rowsTotal_view, rowsTotal_view, rowsTotal_view, view_apply]
  exact onePass_eq_twoPass (xs X b) (fun q => hX _) p

end

/-- THE BRIDGE: on an argument whose entries are all real, the kernel's result is the reference's. -/
theorem result_eq (X : (⟨4, ![16, 4, 1024, 1024]⟩ : Shape).Idx → EReal) (hX : ∀ i, ∃ r : ℝ, X i = (r : EReal)) :
    Cert.KernelIdeal.Array.result X = Cert.ReferenceIdeal.Read.val_main_v30 (F := Ideal) X := by
  funext i
  obtain ⟨b, p, rfl⟩ := exists_sampleIdx i
  rw [result_apply]
  exact entry_eq X _ _ hX b p

end Cert.Proof.Bridge

end
-- ==== Proof.Finite.lean ====
/-
  The precondition says every entry of the argument is a real number.

  The precondition is `all (|x| < +∞)` over the whole argument, stated as a one-bit result equal to 1. A conjunction
  over every entry that came out 1 had a 1 at every entry, and `|x| < +∞` on the extended reals excludes exactly the
  two infinities.
-/
import proofs.«174254_j31172872634755_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Proof.Finite

open Idealize.ShloMosaic

/-- The single-precision pattern of +∞ denotes the top element. -/
theorem ofBits_inf : Ideal.ofBits .f32 0x7F800000#32 = ⊤ := by
  simp [Ideal.ofBits, Ideal.ieee]

/-- An extended real whose absolute value compares below +∞ is a real. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | top => simp at h
  | coe r => exact ⟨r, rfl⟩

instance : Subsingleton Cert.Pre_finite_inputs.S_.Idx := ⟨fun a b => funext fun d => d.elim0⟩

/-- Under the precondition every entry of the argument is a real. -/
theorem real_of_pre [Cert.Pre_finite_inputs.Facts] (X : FVec Ideal Cert.Pre_finite_inputs.S16x4x1024x1024 .f32)
    (h : Cert.Pre_finite_inputs.fn (F := Ideal) X = fun _ => 1#1) (i : Cert.Pre_finite_inputs.S16x4x1024x1024.Idx) :
    ∃ r : ℝ, X i = (r : EReal) := by
  have h0 := congrFun h ValueIdx.ix0
  dsimp only [Cert.Pre_finite_inputs.fn] at h0
  exact real_of_abs_lt (X i) (Host.reduce_andi_all _ _ _ _ _ h0 i)

end Cert.Proof.Finite

end
-- ==== Proof.lean ====
/-
  Masked per-sample normalisation: the kernel and the reference compute one function.

  For every sample of the `[16, 4, 1024, 1024]` argument both programs mask out the zero entries, take the count `n`,
  the mean `μ` and an unbiased variance of the masked-in entries, and replace a masked-in entry `x` by
  `(x − μ) / (√var + ε)`, leaving the zeros alone. The kernel walks a sample twice in slabs, accumulates `n`, `∑x`,
  `∑x²` and uses `var = (∑x² − μ²·n) / (n − 1)` and a reciprocal; the reference re-centres first and sums squared
  deviations. On exact real arithmetic these agree (LibMaskedStats), also at a sample with no or one masked-in entry, where
  both programs meet the same degenerate quotient. The precondition (every entry finite) is what makes the entries real.

  The frames are the generated ones; the kernel's result array as a function of its argument is read off the generated
  frame run (KernelEntries, KernelBlock, KernelArray), the reference's off its generated run (ReferenceEntries), and
  Bridge joins the two index by index.
-/
import proofs.«174254_j31172872634755_2_alg».proof.Defs
import proofs.«174254_j31172872634755_2_alg».proof.Proof.Gen.Kernel
import proofs.«174254_j31172872634755_2_alg».proof.Proof.Gen.Kernel.Skeleton
import proofs.«174254_j31172872634755_2_alg».proof.Proof.Gen.Kernel.Loops
import proofs.«174254_j31172872634755_2_alg».proof.Proof.Gen.Kernel.Launch
import proofs.«174254_j31172872634755_2_alg».proof.Proof.Gen.Kernel.Points
import proofs.«174254_j31172872634755_2_alg».proof.Proof.Gen.Kernel.Frame
import proofs.«174254_j31172872634755_2_alg».proof.Proof.Gen.KernelIdeal
import proofs.«174254_j31172872634755_2_alg».proof.Proof.Gen.KernelIdeal.Skeleton
import proofs.«174254_j31172872634755_2_alg».proof.Proof.Gen.KernelIdeal.Loops
import proofs.«174254_j31172872634755_2_alg».proof.Proof.Gen.KernelIdeal.Launch
import proofs.«174254_j31172872634755_2_alg».proof.Proof.Gen.KernelIdeal.Points
import proofs.«174254_j31172872634755_2_alg».proof.Proof.Gen.KernelIdeal.Frame
import proofs.«174254_j31172872634755_2_alg».proof.Proof.Gen.ReferenceIdeal
import proofs.«174254_j31172872634755_2_alg».proof.Proof.Gen.Pre_finite_inputs
import proofs.«174254_j31172872634755_2_alg».proof.Proof.Gen.ReferenceIdeal.Run
import proofs.«174254_j31172872634755_2_alg».proof.Proof.Gen.ReferenceIdeal.Read
import proofs.«174254_j31172872634755_2_alg».proof.Proof.KernelArray
import proofs.«174254_j31172872634755_2_alg».proof.Proof.Bridge
import proofs.«174254_j31172872634755_2_alg».proof.Proof.Finite
import Idealize.ShloMosaic.Adequacy
import Idealize.ShloMosaic.Init

noncomputable section

namespace Cert.Proof

open Idealize.ShloMosaic Idealize.SL.Sem

/-- The word-level kernel runs and keeps its argument. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its argument: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and are finite, both programs end with the masked normalisation of the argument: the
    kernel with the one-pass form sample by sample, the reference with the two-pass form, which are equal on reals. -/
theorem algebraic : Cert.algebraic_KernelIdeal_ReferenceIdeal := by
  intro m ρ m' ρ' hpre hagree
  refine ⟨fun c => Cert.KernelIdeal.Array.result
      (m ((c.tc : Thread Cert.KernelIdeal.nD Cert.KernelIdeal.τ).loc Cert.KernelIdeal.main_arg0)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, hagree c]
  exact (Cert.Proof.Bridge.result_eq _ (fun i => Cert.Proof.Finite.real_of_pre _ (hpre c) i)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
